-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S16x2048x256 : Shape := ⟨3, ![16, 2048, 256]⟩
abbrev S16x2048x2048 : Shape := ⟨3, ![16, 2048, 2048]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S16x2048x256 : S_.BroadcastsInDim S16x2048x256 (![] : Fin 0 → Fin S16x2048x256.rank)
  reducesTo_S16x2048x256_S_d0_1_2 : S16x2048x256.ReducesTo [0, 1, 2] S_
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16x256x256 .f32) (main_arg1 : FVec F S16x2048x256 .f32) (main_arg2 : FVec F S16x2048x2048 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S16x256x256 : Shape := ⟨3, ![16, 256, 256]⟩
abbrev S16x2048x256 : Shape := ⟨3, ![16, 2048, 256]⟩
abbrev S16x2048x2048 : Shape := ⟨3, ![16, 2048, 2048]⟩
abbrev S4x2048x256 : Shape := ⟨3, ![4, 2048, 256]⟩
abbrev S4x256x256 : Shape := ⟨3, ![4, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S16x256x256, .f32⟩
  | .hbm, ⟨1, _⟩ => ⟨S16x2048x256, .f32⟩
  | .hbm, ⟨2, _⟩ => ⟨S16x2048x2048, .f32⟩
  | .hbm, ⟨3, _⟩ => ⟨S16x2048x256, .f32⟩
  | .local _ .vmem, ⟨0, _⟩ => ⟨S4x2048x256, .f32⟩
  | .local _ .vmem, ⟨1, _⟩ => ⟨S4x2048x256, .f32⟩
  | .local _ .vmem, ⟨2, _⟩ => ⟨S4x256x256, .f32⟩
  | .local _ .vmem, ⟨3, _⟩ => ⟨S4x256x256, .f32⟩
  | .local _ .vmem, ⟨4, _⟩ => ⟨S4x2048x256, .f32⟩
  | .local _ .vmem, ⟨5, _⟩ => ⟨S4x2048x256, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x2048x256_S4x2048x256_0_0_0 : ∀ a, (![0, 0, 0] : Fin 3 → Nat) a + S4x2048x256.size a ≤ S4x2048x256.size a
  h_S4x2048x256 : 0 < S4x2048x256.numel
  inb_S4x256x256_S4x256x256_0_0_0 : ∀ a, (![0, 0, 0] : Fin 3 → Nat) a + S4x256x256.size a ≤ S4x256x256.size a
  h_S4x256x256 : 0 < S4x256x256.numel
  dot_S4x2048x256_S4x256x256_S4x2048x256_2_1_1_2_0_0_wf : DotDims.WF S4x2048x256 S4x256x256 S4x2048x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x256.size a ≤ S16x2048x256.size a
  hwx0_0 : ∀ i : grid0.Coords, EltTy.bits .f32 = 32 ∨ (Rect.block (s := S16x2048x256) S4x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S16x256x256.size a
  hwx0_1 : ∀ i : grid0.Coords, EltTy.bits .f32 = 32 ∨ (Rect.block (s := S16x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x256.size a ≤ S16x2048x256.size a
  hwx0_2 : ∀ i : grid0.Coords, EltTy.bits .f32 = 32 ∨ (Rect.block (s := S16x2048x256) S4x2048x256.size (cc0_transform_2 i) (hinb0_2 i)).WholeWords (EltTy.packing .f32)

variable [Facts₀]

def dot_S4x2048x256_S4x256x256_S4x2048x256_2_1_1_2_0_0 : DotDims S4x2048x256 S4x256x256 S4x2048x256 where
  lhsContracting := [2]
  rhsContracting := [1]
  lhsNonContracting := [1]
  rhsNonContracting := [2]
  lhsBatch := [0]
  rhsBatch := [0]
  wf := dot_S4x2048x256_S4x256x256_S4x2048x256_2_1_1_2_0_0_wf

abbrev win0_0 : Pipeline.Window sig grid0 :=
  Pipeline.Window.ofSpec (Memref.whole main_arg1) S4x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S16x2048x256 : Shape := ⟨3, ![16, 2048, 256]⟩
abbrev S16x2048x2048 : Shape := ⟨3, ![16, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S16x2048x256, .f32⟩
  | .hbm, ⟨2, _⟩ => ⟨S16x2048x2048, .f32⟩
  | .hbm, ⟨3, _⟩ => ⟨S16x2048x256, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S16x2048x256_S16x256x256_S16x2048x256_2_1_1_2_0_0_wf : DotDims.WF S16x2048x256 S16x256x256 S16x2048x256 [2] [1] [1] [2] [0] [0]

variable [Facts₀]

def dot_S16x2048x256_S16x256x256_S16x2048x256_2_1_1_2_0_0 : DotDims S16x2048x256 S16x256x256 S16x2048x256 where
  lhsContracting := [2]
  rhsContracting := [1]
  lhsNonContracting := [1]
  rhsNonContracting := [2]
  lhsBatch := [0]
  rhsBatch := [0]
  wf := dot_S16x2048x256_S16x256x256_S16x2048x256_2_1_1_2_0_0_wf

class Facts : Prop extends Facts₀ where

variable [Facts]
-- ==== Proof.UnpoolSpec.lean ====
/-
  The un-pooling product, over the extended reals.  For an assignment tensor `S` of shape [16, 2048, 256] and pooled
  features `x` of shape [16, 256, 256], every batch entry `b` is un-pooled by one matrix product,
      out[b, n, c] = Σ_{p < 256} S[b, n, p] · x[b, p, c],
  a sum of 256 products for each row `n` of the original graph and each channel `c`.  Only the batch coordinate is shared
  between the two operands; the pooled coordinate `p` is the one summed away.
-/
import Idealize.ShloMosaic.PureOps.Ideal
import Idealize.ShloMosaic.Lib.ValueIdx

noncomputable section

namespace Cert.Unpool

open Idealize.ShloMosaic Idealize.ShloMosaic.ValueIdx
open scoped BigOperators

/-- One entry of the un-pooled features: batch entry `b`, row `n`, channel `c`. -/
def entry (S : (⟨3, ![16, 2048, 256]⟩ : Shape).Idx → EReal) (x : (⟨3, ![16, 256, 256]⟩ : Shape).Idx → EReal)
    (b : Fin 16) (n : Fin 2048) (c : Fin 256) : EReal :=
  ∑ p : Fin 256, S (ix3 b n p) * x (ix3 b p c)

/-- The whole un-pooled tensor, index by index. -/
def unpool (S : (⟨3, ![16, 2048, 256]⟩ : Shape).Idx → EReal) (x : (⟨3, ![16, 256, 256]⟩ : Shape).Idx → EReal) :
    (⟨3, ![16, 2048, 256]⟩ : Shape).Idx → EReal :=
  fun i => entry S x (i 0) (i 1) (i 2)

end Cert.Unpool

end
-- ==== Proof.BlockProduct.lean ====
/-
  What the kernel body computes on one block of four batch entries.  The body loads a [4, 2048, 256] block of the
  assignment tensor and a [4, 256, 256] block of the pooled features and multiplies them on the matrix unit into a zero
  accumulator, the first axis a batch axis of both operands, the last axis of the left operand contracted against the
  middle axis of the right one.  Over the extended reals the zero accumulator adds nothing, so the entry at (b, n, c) of the
  result is the plain sum over the 256 pooled coordinates p of left[b, n, p] · right[b, p, c].
-/
import proofs.«176545_j3504693314190_2_alg».proof.Proof.Gen.KernelIdeal.Skeleton
import Idealize.ShloMosaic.PureOps.Ideal.Laws
import Idealize.ShloMosaic.Lib.ValueIdx

noncomputable section

namespace Cert.Unpool.Block

open Cert.KernelIdeal Cert.KernelIdeal.Gen Idealize.ShloMosaic Idealize.ShloMosaic.ValueIdx
open scoped BigOperators

/-- The dimension numbers of the body's product: batch axis 0 of both operands, axis 2 of the left operand contracted
    against axis 1 of the right one. -/
abbrev D : DotDims S4x2048x256 S4x256x256 S4x2048x256 := dot_S4x2048x256_S4x256x256_S4x2048x256_2_1_1_2_0_0

/-! ## Which element of each operand a term of the sum reads -/

/-- The left operand is read in the result's batch entry, -/
theorem lhs_batch (j : S4x2048x256.Idx) (q : D.contr.Idx) : (D.lhsIdx j q 0).val = (j 0).val := by
  unfold DotDims.lhsIdx
  rw [dif_pos (show (0 : Fin S4x2048x256.rank) ∈ D.lhsBatch by decide)]
  rfl
/-- in the result's row, -/
theorem lhs_row (j : S4x2048x256.Idx) (q : D.contr.Idx) : (D.lhsIdx j q 1).val = (j 1).val := by
  unfold DotDims.lhsIdx
  rw [dif_neg (show ¬(1 : Fin S4x2048x256.rank) ∈ D.lhsBatch by decide),
    dif_pos (show (1 : Fin S4x2048x256.rank) ∈ D.lhsNonContracting by decide)]
  rfl
/-- at the summed coordinate. -/
theorem lhs_pooled (j : S4x2048x256.Idx) (q : D.contr.Idx) : (D.lhsIdx j q 2).val = (q ⟨0, by decide⟩).val :=
  D.lhsIdx_val_of_single rfl j q
/-- The right operand is read in the result's batch entry, -/
theorem rhs_batch (j : S4x2048x256.Idx) (q : D.contr.Idx) : (D.rhsIdx j q 0).val = (j 0).val := by
  unfold DotDims.rhsIdx
  rw [dif_pos (show (0 : Fin S4x256x256.rank) ∈ D.rhsBatch by decide)]
  rfl
/-- at the summed coordinate, -/
theorem rhs_pooled (j : S4x2048x256.Idx) (q : D.contr.Idx) : (D.rhsIdx j q 1).val = (q ⟨0, by decide⟩).val :=
  D.rhsIdx_val_of_single rfl j q
/-- in the result's channel. -/
theorem rhs_channel (j : S4x2048x256.Idx) (q : D.contr.Idx) : (D.rhsIdx j q 2).val = (j 2).val := by
  unfold DotDims.rhsIdx
  rw [dif_neg (show ¬(2 : Fin S4x256x256.rank) ∈ D.rhsBatch by decide),
    dif_pos (show (2 : Fin S4x256x256.rank) ∈ D.rhsNonContracting by decide)]
  rfl

/-! ## The body's value at an index -/

/-- The stored value at (b, n, c) is Σ_p left[b, n, p] · right[b, p, c]: the product into the zero accumulator is the
    bare sum over the contracted axis, re-indexed by its one coordinate. -/
theorem payload_apply (x0 : FVec Ideal S4x2048x256 .f32) (x1 : FVec Ideal S4x256x256 .f32) (j : S4x2048x256.Idx) :
    k0_pay1 (F := Ideal) x0 x1 j = ∑ p : Fin 256, x0 (ix3 (j 0) (j 1) p) * x1 (ix3 (j 0) p (j 2)) := by
  unfold k0_pay1
  refine (Ideal.matmul_constant_zero_apply D none x0 x1 j).trans ?_
  rw [← Equiv.sum_comp (contrEquiv1 D 256 rfl rfl).symm]
  refine Finset.sum_congr rfl fun p _ => ?_
  have hp := contrEquiv1_symm_val D 256 rfl rfl p
  have el : D.lhsIdx j ((contrEquiv1 D 256 rfl rfl).symm p) = ix3 (j 0) (j 1) p := funext fun a => Fin.ext (by
    match a with
    | ⟨0, _⟩ => exact lhs_batch _ _
    | ⟨1, _⟩ => exact lhs_row _ _
    | ⟨2, _⟩ => exact (lhs_pooled _ _).trans hp)
  have er : D.rhsIdx j ((contrEquiv1 D 256 rfl rfl).symm p) = ix3 (j 0) p (j 2) := funext fun a => Fin.ext (by
    match a with
    | ⟨0, _⟩ => exact rhs_batch _ _
    | ⟨1, _⟩ => exact (rhs_pooled _ _).trans hp
    | ⟨2, _⟩ => exact rhs_channel _ _)
  exact congrArg₂ (fun a b => x0 a * x1 b) el er

end Cert.Unpool.Block

end
-- ==== Proof.UnpoolKernel.lean ====
/-
  The kernel's result array as one function of its argument arrays.  The grid has four points; point `t` stages batch
  entries 4t … 4t+3 of the assignment tensor and of the pooled features (blocks [4, 2048, 256] and [4, 256, 256], whole
  along the other two axes) and writes back batch entries 4t … 4t+3 of the result.  So the element the body reads at block
  coordinate (b', n, p) is the array's element at (4t + b', n, p), the value written at block coordinate (b', n, c) is the
  un-pooling product's entry (4t + b', n, c), and since every batch entry b lies in the block of point b / 4 the four
  blocks cover the result array: after the run it holds the un-pooling product of the two arguments.
-/
import proofs.«176545_j3504693314190_2_alg».proof.Proof.Gen.KernelIdeal.Value
import proofs.«176545_j3504693314190_2_alg».proof.Proof.UnpoolSpec
import proofs.«176545_j3504693314190_2_alg».proof.Proof.BlockProduct

noncomputable section

namespace Cert.KernelIdeal.Whole

open Cert.KernelIdeal Cert.KernelIdeal.Gen Idealize.ShloMosaic Idealize.ShloMosaic.TcCoe Idealize.SL.Sem
open Idealize.ShloMosaic.ValueIdx Cert.Unpool
open Idealize.ShloMosaic.Pipeline (Dat)
open scoped BigOperators

variable (m : (ℓ : Loc nD τ sig) → Buf (Elt Ideal) ℓ) (ρ : Dev nD → PrngReg)

theorem zero_offsets : (![0, 0, 0] : Fin 3 → Nat) = fun _ => 0 := funext fun a => by fin_cases a <;> rfl

/-- The three index maps, decided over the four grid points: each window's block index is the point's number along the
    batch axis and zero along the other two. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The assignment block at point `t`, at block coordinate `y`, is the assignment tensor at batch entry 4t + y₀. -/
theorem assign_block (c : Dev nD) (t : Fin cfg0.N) (y : S4x2048x256.Idx) (i : S16x2048x256.Idx)
    (h0 : (i 0).val = 4 * t.val + (y 0).val) (h1 : (i 1).val = (y 1).val) (h2 : (i 2).val = (y 2).val) :
    iblk m c 0 t y = V m c main_arg1 i := by
  show V m c main_arg1 (((cfg0.win 0).blk t).view.emb y) = V m c main_arg1 i
  obtain ⟨e0, e1, e2, -⟩ := block_indices t
  refine congrArg _ (funext fun a => Fin.ext ?_)
  match a with
  | ⟨0, _⟩ => show win0_0.index t (0 : Fin 3) * 4 + 1 * (y 0).val = (i 0).val; omega
  | ⟨1, _⟩ => show win0_0.index t (1 : Fin 3) * 2048 + 1 * (y 1).val = (i 1).val; omega
  | ⟨2, _⟩ => show win0_0.index t (2 : Fin 3) * 256 + 1 * (y 2).val = (i 2).val; omega

/-- The feature block at point `t`, at block coordinate `y`, is the pooled features at batch entry 4t + y₀. -/
theorem feature_block (c : Dev nD) (t : Fin cfg0.N) (y : S4x256x256.Idx) (i : S16x256x256.Idx)
    (h0 : (i 0).val = 4 * t.val + (y 0).val) (h1 : (i 1).val = (y 1).val) (h2 : (i 2).val = (y 2).val) :
    iblk m c 1 t y = V m c main_arg0 i := by
  show V m c main_arg0 (((cfg0.win 1).blk t).view.emb y) = V m c main_arg0 i
  obtain ⟨-, -, -, e0, e1, e2, -⟩ := block_indices t
  refine congrArg _ (funext fun a => Fin.ext ?_)
  match a with
  | ⟨0, _⟩ => show win0_1.index t (0 : Fin 3) * 4 + 1 * (y 0).val = (i 0).val; omega
  | ⟨1, _⟩ => show win0_1.index t (1 : Fin 3) * 256 + 1 * (y 1).val = (i 1).val; omega
  | ⟨2, _⟩ => show win0_1.index t (2 : Fin 3) * 256 + 1 * (y 2).val = (i 2).val; omega

/-- The result block's coordinate `j` at point `t` sits in the array at batch entry 4t + j₀, the same row and channel. -/
theorem result_block (t : Fin cfg0.N) (j : S4x2048x256.Idx) :
    ((((cfg0.win 2).blk t).view.emb j) 0).val = 4 * t.val + (j 0).val
    ∧ ((((cfg0.win 2).blk t).view.emb j) 1).val = (j 1).val
    ∧ ((((cfg0.win 2).blk t).view.emb j) 2).val = (j 2).val := by
  obtain ⟨-, -, -, -, -, -, e0, e1, e2⟩ := block_indices t
  refine ⟨?_, ?_, ?_⟩
  · show win0_2.index t (0 : Fin 3) * 4 + 1 * (j 0).val = _; omega
  · show win0_2.index t (1 : Fin 3) * 2048 + 1 * (j 1).val = _; omega
  · show win0_2.index t (2 : Fin 3) * 256 + 1 * (j 2).val = _; omega

/-- WHAT POINT `t` WRITES BACK is block `t` of the un-pooling product of the two argument arrays. -/
theorem flushed_eq (c : Dev nD) (t : Fin cfg0.N) :
    (dats m 0 c).flushed 2 t
      = ((cfg0.win 2).blk t).view.read (Elt Ideal) (unpool (V m c main_arg1) (V m c main_arg0)) := by
  rw [Cert.KernelIdeal.Value.flushed2]
  unfold out0_2
  rw [View.canon_unit_zero zero_offsets]
  simp only [View.ld_unit_zero (S := S4x2048x256) zero_offsets, View.ld_unit_zero (S := S4x256x256) zero_offsets]
  funext j
  obtain ⟨r0, r1, r2⟩ := result_block t j
  show k0_pay1 (F := Ideal) (iblk m c 0 t) (iblk m c 1 t) j
      = entry (V m c main_arg1) (V m c main_arg0) ((((cfg0.win 2).blk t).view.emb j) 0)
          ((((cfg0.win 2).blk t).view.emb j) 1) ((((cfg0.win 2).blk t).view.emb j) 2)
  refine (Cert.Unpool.Block.payload_apply (iblk m c 0 t) (iblk m c 1 t) j).trans ?_
  unfold entry
  refine Finset.sum_congr rfl fun p _ => ?_
  refine congrArg₂ (· * ·) (assign_block m c t _ _ ?_ ?_ ?_) (feature_block m c t _ _ ?_ ?_ ?_)
  · exact r0
  · exact r1
  · rfl
  · exact r0
  · rfl
  · exact r2

/-- An index of the result array is in point `t`'s block iff each coordinate is in the block's range on its axis. -/
theorem mem_block (t : Fin cfg0.N) (i : S16x2048x256.Idx) :
    i ∈ ((cfg0.win 2).blk t).view.set ↔ ∀ a : Fin 3, win0_2.index t a * S4x2048x256.size a ≤ (i a).val
      ∧ (i a).val < win0_2.index t a * S4x2048x256.size a + S4x2048x256.size a := by
  show i ∈ ((View.whole main_v0).slice (win0_2.rect t)).set ↔ _
  rw [View.set_slice_whole, Rect.mem_set_unit]
  exact Iff.rfl

/-- Batch entry `b` is written by point `b / 4`: the four blocks cover the result array. -/
theorem covered (i : S16x2048x256.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 256 := (i 2).isLt
  have hN : cfg0.N = 4 := N_0
  let t : Fin cfg0.N := ⟨(i 0).val / 4, by omega⟩
  have ht : t.val = (i 0).val / 4 := rfl
  obtain ⟨-, -, -, -, -, -, e0, e1, e2⟩ := block_indices t
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 256 ≤ (i 2).val ∧ (i 2).val < win0_2.index t (2 : Fin 3) * 256 + 256; omega

/-- THE RESULT ARRAY after the run is the un-pooling product of the argument arrays as launched. -/
theorem final (c : Dev nD) :
    (dats m 0 c).arrAt 2 cfg0.N
      = unpool (m ((c : Thread nD τ).loc main_arg1)) (m ((c : Thread nD τ).loc main_arg0)) :=
  (dats m 0 c).arrAt_eq_of_cover 2 (unpool (V m c main_arg1) (V m c main_arg0))
    (fun t _ => flushed_eq m c t) covered

/-- The kernel's run, read: the result at the un-pooling product, the arguments unchanged. -/
theorem run : θ_run defs (onTc (τ := τ) (main (F := Ideal))) ⟨m, fun _ => 0, ρ⟩ fun r => ∀ c : Dev nD,
      r.2.mem ((c : Thread nD τ).loc main_v0)
        = unpool (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.UnpoolReference.lean ====
/-
  The reference's result as the same function.  The reference is one batched `dot_general` of the assignment tensor
  and the pooled features, batch axis 0 of both, axis 2 of the first contracted against axis 1 of the second; at an index
  (b, n, c) it is the sum over the 256 pooled coordinates p of S[b, n, p] · x[b, p, c], which is the un-pooling product's
  entry, term by term.
-/
import proofs.«176545_j3504693314190_2_alg».proof.Proof.Gen.ReferenceIdeal.Read
import proofs.«176545_j3504693314190_2_alg».proof.Proof.UnpoolSpec

noncomputable section

namespace Cert.ReferenceIdeal.Whole

open Cert.ReferenceIdeal Cert.ReferenceIdeal.Gen Cert.ReferenceIdeal.Read Idealize.ShloMosaic
open Idealize.ShloMosaic.ValueIdx Cert.Unpool
open scoped BigOperators

/-- The left factor of term `p` at (b, n, c) is read at (b, n, p), -/
theorem left_index (i : S16x2048x256.Idx) (p : Fin 256) : lidx_main_v0 i p = ix3 (i 0) (i 1) p :=
  funext fun a => Fin.ext (by match a with | ⟨0, _⟩ => rfl | ⟨1, _⟩ => rfl | ⟨2, _⟩ => rfl)
/-- the right factor at (b, p, c). -/
theorem right_index (i : S16x2048x256.Idx) (p : Fin 256) : ridx_main_v0 i p = ix3 (i 0) p (i 2) :=
  funext fun a => Fin.ext (by match a with | ⟨0, _⟩ => rfl | ⟨1, _⟩ => rfl | ⟨2, _⟩ => rfl)

/-- The reference's one operation, of the pooled features `x` and the assignment tensor `S`, is the un-pooling product. -/
theorem result_eq (x : (⟨S16x256x256, .f32⟩ : BufTy).Contents (Elt Ideal)) (S : (⟨S16x2048x256, .f32⟩ : BufTy).Contents (Elt Ideal)) :
    val_main_v0 (F := Ideal) x S = unpool S x := by
  funext i
  rw [val_main_v0_apply]
  unfold unpool entry
  refine Finset.sum_congr rfl fun p _ => ?_
  exact congrArg₂ (fun a b => S a * x b) (left_index i p) (right_index i p)

end Cert.ReferenceIdeal.Whole

end
-- ==== Proof.lean ====
/-
  The un-pooling kernel against its reference, over the extended reals.

  Both programs compute, for each of the 16 batch entries b, the matrix product of the assignment matrix S[b] (2048 × 256)
  with the pooled features x[b] (256 × 256):
      out[b, n, c] = Σ_{p < 256} S[b, n, p] · x[b, p, c]            (Proof/UnpoolSpec.lean).
  The reference does it in one batched contraction (Proof/UnpoolReference.lean).  The kernel walks a grid of four points,
  each staging four batch entries of both operands, multiplying them into a zero accumulator and writing four batch entries
  of the result back; the value stored at a block coordinate is the same sum of 256 products (Proof/BlockProduct.lean: the
  zero accumulator adds nothing), the block of point t holds batch entries 4t … 4t+3, and the four blocks cover the result
  array (Proof/UnpoolKernel.lean).  The third argument, an adjacency tensor, is read by neither program.  No law beyond
  0 + s = s is used, so the finiteness of the inputs is never needed; the two results are the same sums, term by term.

  The three frames are the generated ones (the reference's is its generated run with the result dropped), and the kernel's
  idealization rewrote nothing, so there is nothing to preserve.
-/
import proofs.«176545_j3504693314190_2_alg».proof.Defs
import proofs.«176545_j3504693314190_2_alg».proof.Proof.Gen.Kernel
import proofs.«176545_j3504693314190_2_alg».proof.Proof.Gen.Kernel.Frame
import proofs.«176545_j3504693314190_2_alg».proof.Proof.Gen.KernelIdeal
import proofs.«176545_j3504693314190_2_alg».proof.Proof.Gen.KernelIdeal.Frame
import proofs.«176545_j3504693314190_2_alg».proof.Proof.Gen.KernelIdeal.Value
import proofs.«176545_j3504693314190_2_alg».proof.Proof.Gen.ReferenceIdeal
import proofs.«176545_j3504693314190_2_alg».proof.Proof.Gen.ReferenceIdeal.Run
import proofs.«176545_j3504693314190_2_alg».proof.Proof.Gen.ReferenceIdeal.Read
import proofs.«176545_j3504693314190_2_alg».proof.Proof.Gen.Pre_finite_inputs
import proofs.«176545_j3504693314190_2_alg».proof.Proof.UnpoolSpec
import proofs.«176545_j3504693314190_2_alg».proof.Proof.UnpoolKernel
import proofs.«176545_j3504693314190_2_alg».proof.Proof.UnpoolReference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the un-pooling product of the assignment tensor and the
    pooled features: the kernel's four blocks assemble it, the reference's contraction is it index by index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.Whole.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
